-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x32 : Shape := ⟨2, ![524288, 32]⟩
abbrev S2000000 : Shape := ⟨1, ![2000000]⟩
abbrev S_ : Shape := ⟨0, ![]⟩

class Facts : Prop where
  bcast_S_S524288x32 : S_.BroadcastsInDim S524288x32 (![] : Fin 0 → Fin S524288x32.rank)
  reducesTo_S524288x32_S_d0_1 : S524288x32.ReducesTo [0, 1] S_
  h_S_ : 0 < S_.numel
  bcast_S_S2000000 : S_.BroadcastsInDim S2000000 (![] : Fin 0 → Fin S2000000.rank)
  reducesTo_S2000000_S_d0 : S2000000.ReducesTo [0] S_

variable [Facts]

def fn {F : FTy → Type} [FloatOps F] (main_arg0 : FVec F S524288x32 .f32) (main_arg1 : IVec S524288x32 32) (main_arg2 : IVec S2000000 1) (main_arg3 : FVec F S2000000 .f32) : IVec S_ 1 :=
  let main_v0 : FVec F S524288x32 .f32 := Host.absf main_arg0
  let main_cst : FVec F S_ .f32 := constant S_ .f32 0x7F800000#32
  let main_v1 : FVec F S524288x32 .f32 := broadcastInDim S524288x32 ![] bcast_S_S524288x32 main_cst
  let main_v2 : IVec S524288x32 1 := cmpf .olt main_v0 main_v1
  let main_c : IVec S_ 1 := constantI S_ 1 1#1
  let main_v3 : IVec S_ 1 := (fun x v => Host.reduce IntOp.andi x v reducesTo_S524288x32_S_d0_1 h_S_) main_v2 main_c
  let main_v4 : FVec F S2000000 .f32 := Host.absf main_arg3
  let main_cst_0 : FVec F S_ .f32 := constant S_ .f32 0x7F800000#32
  let main_v5 : FVec F S2000000 .f32 := broadcastInDim S2000000 ![] bcast_S_S2000000 main_cst_0
  let main_v6 : IVec S2000000 1 := cmpf .olt main_v4 main_v5
  let main_c_1 : IVec S_ 1 := constantI S_ 1 1#1
  let main_v7 : IVec S_ 1 := (fun x v => Host.reduce IntOp.andi x v reducesTo_S2000000_S_d0 h_S_) main_v6 main_c_1
  let main_v8 : IVec S_ 1 := andi main_v3 main_v7
  main_v8
-- ==== Kernel.lean ====
abbrev S524288x32 : Shape := ⟨2, ![524288, 32]⟩
abbrev S2000000 : Shape := ⟨1, ![2000000]⟩
abbrev S_ : Shape := ⟨0, ![]⟩
abbrev S524288x32x1 : Shape := ⟨3, ![524288, 32, 1]⟩
abbrev S524288 : Shape := ⟨1, ![524288]⟩
abbrev S8192x32 : Shape := ⟨2, ![8192, 32]⟩
abbrev S8192 : Shape := ⟨1, ![8192]⟩
abbrev S8192x1 : Shape := ⟨2, ![8192, 1]⟩

abbrev nBuf : Space → Nat
  | .hbm => 24
  | .vmem => 8
  | .smem => 0
  | _ => 0

abbrev bufTy : (tb : Table) → Fin (tcTables nBuf tb) → BufTy
  | .hbm, ⟨0, _⟩ => ⟨S524288x32, .f32⟩
  | .hbm, ⟨1, _⟩ => ⟨S524288x32, .i32⟩
  | .hbm, ⟨2, _⟩ => ⟨S2000000, .i1⟩
  | .hbm, ⟨3, _⟩ => ⟨S2000000, .f32⟩
  | .hbm, ⟨4, _⟩ => ⟨S_, .i32⟩
  | .hbm, ⟨5, _⟩ => ⟨S524288x32, .i32⟩
  | .hbm, ⟨6, _⟩ => ⟨S524288x32, .i1⟩
  | .hbm, ⟨7, _⟩ => ⟨S_, .i32⟩
  | .hbm, ⟨8, _⟩ => ⟨S524288x32, .i32⟩
  | .hbm, ⟨9, _⟩ => ⟨S524288x32, .i32⟩
  | .hbm, ⟨10, _⟩ => ⟨S524288x32, .i32⟩
  | .hbm, ⟨11, _⟩ => ⟨S524288x32x1, .i32⟩
  | .hbm, ⟨12, _⟩ => ⟨S524288x32, .i1⟩
  | .hbm, ⟨13, _⟩ => ⟨S_, .i32⟩
  | .hbm, ⟨14, _⟩ => ⟨S524288x32, .i32⟩
  | .hbm, ⟨15, _⟩ => ⟨S524288x32, .i1⟩
  | .hbm, ⟨16, _⟩ => ⟨S_, .i32⟩
  | .hbm, ⟨17, _⟩ => ⟨S524288x32, .i32⟩
  | .hbm, ⟨18, _⟩ => ⟨S524288x32, .i32⟩
  | .hbm, ⟨19, _⟩ => ⟨S524288x32, .i32⟩
  | .hbm, ⟨20, _⟩ => ⟨S524288x32x1, .i32⟩
  | .hbm, ⟨21, _⟩ => ⟨S524288x32, .f32⟩
  | .hbm, ⟨22, _⟩ => ⟨S524288x32, .f32⟩
  | .hbm, ⟨23, _⟩ => ⟨S524288, .f32⟩
  | .local _ .vmem, ⟨0, _⟩ => ⟨S8192x32, .f32⟩
  | .local _ .vmem, ⟨1, _⟩ => ⟨S8192x32, .f32⟩
  | .local _ .vmem, ⟨2, _⟩ => ⟨S8192x32, .f32⟩
  | .local _ .vmem, ⟨3, _⟩ => ⟨S8192x32, .f32⟩
  | .local _ .vmem, ⟨4, _⟩ => ⟨S8192x32, .f32⟩
  | .local _ .vmem, ⟨5, _⟩ => ⟨S8192x32, .f32⟩
  | .local _ .vmem, ⟨6, _⟩ => ⟨S8192, .f32⟩
  | .local _ .vmem, ⟨7, _⟩ => ⟨S8192, .f32⟩
  | _, _ => ⟨S524288x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S8192x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S524288x32 : S_.BroadcastsInDim S524288x32 (![] : Fin 0 → Fin S524288x32.rank)
  bcast_S524288x32_S524288x32x1_0_1 : S524288x32.BroadcastsInDim S524288x32x1 (![0, 1] : Fin 2 → Fin S524288x32x1.rank)
  inb_S8192x32_S8192x32_0_0 : ∀ a, (![0, 0] : Fin 2 → Nat) a + S8192x32.size a ≤ S8192x32.size a
  h_S8192x32 : 0 < S8192x32.numel
  shapeCasts_S8192x32_S8192x32 : S8192x32.ShapeCasts S8192x32
  natLt_1_32 : 1 < 32
  reduces_S8192x32_S8192 : S8192x32.Reduces [1] S8192
  shapeCasts_S8192_S8192x1 : S8192.ShapeCasts S8192x1
  broadcasts_S8192x1_S8192x32 : S8192x1.Broadcasts S8192x32
  inb_S8192_S8192_0 : ∀ a, (![0] : Fin 1 → Nat) a + S8192.size a ≤ S8192.size a
  h_S8192 : 0 < S8192.numel
  gather_S2000000_S524288x32x1_S524288x32_n_0_n_n_0_2_1_wf : GatherDims.WF S2000000 S524288x32x1 S524288x32 [] [0] [] [0] [] 2 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x32.size a ≤ S524288x32.size a
  hwx0_0 : ∀ i : grid0.Coords, EltTy.bits .f32 = 32 ∨ (Rect.block (s := S524288x32) S8192x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x32.size a ≤ S524288x32.size a
  hwx0_1 : ∀ i : grid0.Coords, EltTy.bits .f32 = 32 ∨ (Rect.block (s := S524288x32) S8192x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x32.size a ≤ S524288x32.size a
  hwx0_2 : ∀ i : grid0.Coords, EltTy.bits .f32 = 32 ∨ (Rect.block (s := S524288x32) S8192x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192.size a ≤ S524288.size a
  hwx0_3 : ∀ i : grid0.Coords, EltTy.bits .f32 = 32 ∨ (Rect.block (s := S524288) S8192.size (cc0_transform_3 i) (hinb0_3 i)).WholeWords (EltTy.packing .f32)

variable [Facts₀]

def gather_S2000000_S524288x32x1_S524288x32_n_0_n_n_0_2_1 : GatherDims S2000000 S524288x32x1 S524288x32 where
  offsetDims := []
  collapsedSliceDims := [0]
  operandBatchingDims := []
  startIndicesBatchingDims := []
  startIndexMap := [0]
  indexVectorDim := 2
  sliceSizes := ![1]
  wf := gather_S2000000_S524288x32x1_S524288x32_n_0_n_n_0_2_1_wf

abbrev win0_0 : Pipeline.Window sig grid0 :=
  Pipeline.Window.ofSpec (Memref.whole main_arg0) S8192x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S8192x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S8192x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S524288x32 : Shape := ⟨2, ![524288, 32]⟩
abbrev S2000000 : Shape := ⟨1, ![2000000]⟩
abbrev S_ : Shape := ⟨0, ![]⟩
abbrev S524288x32x1 : Shape := ⟨3, ![524288, 32, 1]⟩
abbrev S524288 : Shape := ⟨1, ![524288]⟩
abbrev S524288x1 : Shape := ⟨2, ![524288, 1]⟩

abbrev nBuf : Space → Nat
  | .hbm => 77
  | .vmem => 0
  | .smem => 0
  | _ => 0

abbrev bufTy : (tb : Table) → Fin (tcTables nBuf tb) → BufTy
  | .hbm, ⟨0, _⟩ => ⟨S524288x32, .f32⟩
  | .hbm, ⟨1, _⟩ => ⟨S524288x32, .i32⟩
  | .hbm, ⟨2, _⟩ => ⟨S2000000, .i1⟩
  | .hbm, ⟨3, _⟩ => ⟨S2000000, .f32⟩
  | .hbm, ⟨4, _⟩ => ⟨S_, .f32⟩
  | .hbm, ⟨5, _⟩ => ⟨S524288x32, .f32⟩
  | .hbm, ⟨6, _⟩ => ⟨S524288x32, .i1⟩
  | .hbm, ⟨7, _⟩ => ⟨S_, .i32⟩
  | .hbm, ⟨8, _⟩ => ⟨S524288x32, .i32⟩
  | .hbm, ⟨9, _⟩ => ⟨S524288x32, .i1⟩
  | .hbm, ⟨10, _⟩ => ⟨S_, .i32⟩
  | .hbm, ⟨11, _⟩ => ⟨S524288x32, .i32⟩
  | .hbm, ⟨12, _⟩ => ⟨S524288x32, .i32⟩
  | .hbm, ⟨13, _⟩ => ⟨S524288x32, .i32⟩
  | .hbm, ⟨14, _⟩ => ⟨S524288x32x1, .i32⟩
  | .hbm, ⟨15, _⟩ => ⟨S524288x32, .i1⟩
  | .hbm, ⟨16, _⟩ => ⟨S524288x32, .i1⟩
  | .hbm, ⟨17, _⟩ => ⟨S524288x32, .i32⟩
  | .hbm, ⟨18, _⟩ => ⟨S_, .i32⟩
  | .hbm, ⟨19, _⟩ => ⟨S524288, .i32⟩
  | .hbm, ⟨20, _⟩ => ⟨S524288x32, .i32⟩
  | .hbm, ⟨21, _⟩ => ⟨S_, .i32⟩
  | .hbm, ⟨22, _⟩ => ⟨S524288, .i32⟩
  | .hbm, ⟨23, _⟩ => ⟨S_, .i32⟩
  | .hbm, ⟨24, _⟩ => ⟨S524288, .i32⟩
  | .hbm, ⟨25, _⟩ => ⟨S524288, .i32⟩
  | .hbm, ⟨26, _⟩ => ⟨S524288, .f32⟩
  | .hbm, ⟨27, _⟩ => ⟨S524288, .f32⟩
  | .hbm, ⟨28, _⟩ => ⟨S524288, .f32⟩
  | .hbm, ⟨29, _⟩ => ⟨S_, .i32⟩
  | .hbm, ⟨30, _⟩ => ⟨S524288, .i32⟩
  | .hbm, ⟨31, _⟩ => ⟨S524288, .i1⟩
  | .hbm, ⟨32, _⟩ => ⟨S_, .i32⟩
  | .hbm, ⟨33, _⟩ => ⟨S524288, .i32⟩
  | .hbm, ⟨34, _⟩ => ⟨S524288, .i1⟩
  | .hbm, ⟨35, _⟩ => ⟨S524288, .i1⟩
  | .hbm, ⟨36, _⟩ => ⟨S_, .f32⟩
  | .hbm, ⟨37, _⟩ => ⟨S524288, .f32⟩
  | .hbm, ⟨38, _⟩ => ⟨S524288, .i1⟩
  | .hbm, ⟨39, _⟩ => ⟨S524288, .i1⟩
  | .hbm, ⟨40, _⟩ => ⟨S_, .f32⟩
  | .hbm, ⟨41, _⟩ => ⟨S524288x32, .f32⟩
  | .hbm, ⟨42, _⟩ => ⟨S524288x32, .f32⟩
  | .hbm, ⟨43, _⟩ => ⟨S_, .f32⟩
  | .hbm, ⟨44, _⟩ => ⟨S524288, .f32⟩
  | .hbm, ⟨45, _⟩ => ⟨S524288x1, .f32⟩
  | .hbm, ⟨46, _⟩ => ⟨S524288x32, .f32⟩
  | .hbm, ⟨47, _⟩ => ⟨S524288x32, .f32⟩
  | .hbm, ⟨48, _⟩ => ⟨S524288x32, .f32⟩
  | .hbm, ⟨49, _⟩ => ⟨S_, .f32⟩
  | .hbm, ⟨50, _⟩ => ⟨S_, .f32⟩
  | .hbm, ⟨51, _⟩ => ⟨S524288x32, .f32⟩
  | .hbm, ⟨52, _⟩ => ⟨S524288x32, .f32⟩
  | .hbm, ⟨53, _⟩ => ⟨S_, .f32⟩
  | .hbm, ⟨54, _⟩ => ⟨S524288, .f32⟩
  | .hbm, ⟨55, _⟩ => ⟨S524288x1, .f32⟩
  | .hbm, ⟨56, _⟩ => ⟨S_, .f32⟩
  | .hbm, ⟨57, _⟩ => ⟨S524288x1, .f32⟩
  | .hbm, ⟨58, _⟩ => ⟨S524288x1, .f32⟩
  | .hbm, ⟨59, _⟩ => ⟨S524288x32, .f32⟩
  | .hbm, ⟨60, _⟩ => ⟨S524288x32, .f32⟩
  | .hbm, ⟨61, _⟩ => ⟨S_, .i32⟩
  | .hbm, ⟨62, _⟩ => ⟨S524288x32, .i32⟩
  | .hbm, ⟨63, _⟩ => ⟨S524288x32, .i1⟩
  | .hbm, ⟨64, _⟩ => ⟨S_, .i32⟩
  | .hbm, ⟨65, _⟩ => ⟨S524288x32, .i32⟩
  | .hbm, ⟨66, _⟩ => ⟨S524288x32, .i32⟩
  | .hbm, ⟨67, _⟩ => ⟨S524288x32, .i32⟩
  | .hbm, ⟨68, _⟩ => ⟨S524288x32x1, .i32⟩
  | .hbm, ⟨69, _⟩ => ⟨S524288x32, .f32⟩
  | .hbm, ⟨70, _⟩ => ⟨S524288x32, .f32⟩
  | .hbm, ⟨71, _⟩ => ⟨S_, .f32⟩
  | .hbm, ⟨72, _⟩ => ⟨S524288, .f32⟩
  | .hbm, ⟨73, _⟩ => ⟨S_, .f32⟩
  | .hbm, ⟨74, _⟩ => ⟨S_, .f32⟩
  | .hbm, ⟨75, _⟩ => ⟨S524288, .f32⟩
  | .hbm, ⟨76, _⟩ => ⟨S524288, .f32⟩
  | _, _ => ⟨S524288x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_c_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_4 : Ref sig .tc := ⟨.hbm, 29, rfl⟩
abbrev main_v19 : Ref sig .tc := ⟨.hbm, 30, rfl⟩
abbrev main_v20 : Ref sig .tc := ⟨.hbm, 31, rfl⟩
abbrev main_c_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_call0_v0 : Ref sig .tc := ⟨.hbm, 41, rfl⟩
abbrev main_v27 : Ref sig .tc := ⟨.hbm, 42, rfl⟩
abbrev main_cst_8 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_9 : Ref sig .tc := ⟨.hbm, 49, rfl⟩
abbrev main_call1_v0 : Ref sig .tc := ⟨.hbm, 50, rfl⟩
abbrev main_call1_v1 : Ref sig .tc := ⟨.hbm, 51, rfl⟩
abbrev main_v33 : Ref sig .tc := ⟨.hbm, 52, rfl⟩
abbrev main_cst_10 : Ref sig .tc := ⟨.hbm, 53, rfl⟩
abbrev main_v34 : Ref sig .tc := ⟨.hbm, 54, rfl⟩
abbrev main_v35 : Ref sig .tc := ⟨.hbm, 55, rfl⟩
abbrev main_cst_11 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_12 : Ref sig .tc := ⟨.hbm, 61, rfl⟩
abbrev main_v40 : Ref sig .tc := ⟨.hbm, 62, rfl⟩
abbrev main_v41 : Ref sig .tc := ⟨.hbm, 63, rfl⟩
abbrev main_c_13 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_14 : Ref sig .tc := ⟨.hbm, 71, rfl⟩
abbrev main_v48 : Ref sig .tc := ⟨.hbm, 72, rfl⟩
abbrev main_cst_15 : Ref sig .tc := ⟨.hbm, 73, rfl⟩
abbrev main_call2_v0 : Ref sig .tc := ⟨.hbm, 74, rfl⟩
abbrev main_call2_v1 : Ref sig .tc := ⟨.hbm, 75, rfl⟩
abbrev main_v49 : Ref sig .tc := ⟨.hbm, 76, rfl⟩

abbrev nD : Nat := 1
abbrev τ : Topo := Topo.v7x

variable {F : FTy → Type} [FloatOps F]

class Facts₀ : Prop where
  bcast_S_S524288x32 : S_.BroadcastsInDim S524288x32 (![] : Fin 0 → Fin S524288x32.rank)
  bcast_S524288x32_S524288x32x1_0_1 : S524288x32.BroadcastsInDim S524288x32x1 (![0, 1] : Fin 2 → Fin S524288x32x1.rank)
  natLt_1_32 : 1 < 32
  reducesTo_S524288x32_S524288_d1 : S524288x32.ReducesTo [1] S524288
  h_S_ : 0 < S_.numel
  bcast_S_S524288 : S_.BroadcastsInDim S524288 (![] : Fin 0 → Fin S524288.rank)
  bcast_S524288_S524288x1_0 : S524288.BroadcastsInDim S524288x1 (![0] : Fin 1 → Fin S524288x1.rank)
  bcast_S524288x1_S524288x32_0_1 : S524288x1.BroadcastsInDim S524288x32 (![0, 1] : Fin 2 → Fin S524288x32.rank)
  bcast_S_S524288x1 : S_.BroadcastsInDim S524288x1 (![] : Fin 0 → Fin S524288x1.rank)
  gather_S2000000_S524288x32x1_S524288x32_n_0_n_n_0_2_1_wf : GatherDims.WF S2000000 S524288x32x1 S524288x32 [] [0] [] [0] [] 2 ![1]

variable [Facts₀]

def gather_S2000000_S524288x32x1_S524288x32_n_0_n_n_0_2_1 : GatherDims S2000000 S524288x32x1 S524288x32 where
  offsetDims := []
  collapsedSliceDims := [0]
  operandBatchingDims := []
  startIndicesBatchingDims := []
  startIndexMap := [0]
  indexVectorDim := 2
  sliceSizes := ![1]
  wf := gather_S2000000_S524288x32x1_S524288x32_n_0_n_n_0_2_1_wf

class Facts : Prop extends Facts₀ where

variable [Facts]
-- ==== Proof.RowSpec.lean ====
/-
  One row of the masked, softmax-weighted sum, as pure functions of the row's 32 similarities `s`, its 32 gathered flags
  and its 32 gathered counts `q`.

  A neighbour is KEPT when its similarity exceeds the threshold, and VIRAL when it is kept and flagged. The row's result
  is `Σₖ wₖ · qₖ` with `w` the softmax of the similarities over the viral neighbours (the others masked to a large
  negative fill before the maximum, and to `0` after the exponential; the normaliser floored at a tiny constant), and it is
  replaced by `0` unless the row is VALID: some neighbour kept, some viral, and viral / max(kept, 1) at least a ratio.

  Two programs compute this row and differ only in HOW THEY COUNT. One adds the kept (viral) bits as 32-bit integers and
  converts the two totals to floats afterwards; the other converts every bit to the float 0 or 1 first and adds floats,
  and it also receives the flag as a float 0/1 that it compares against one half. Over the extended reals a sum of at
  most 32 zeros and ones is the same natural number either way, read signed from a 32-bit word without wrapping, so the
  two validity bits agree (`valid_eq`), the two viral masks agree (`viralF_uitofp`), and everything after them is
  literally the same function (`rowOut`): `kerRow_eq_refRow`.
-/
import Idealize.ShloMosaic.PureOps.Ideal.Laws
import Idealize.ShloMosaic.Lib.IdealHost
import Idealize.ShloMosaic.Lib.IndicatorCount

noncomputable section

open scoped BigOperators

namespace Cert.KnnRow

open Idealize.ShloMosaic

/-! ## The constants, as the words both programs carry -/

/-- The similarity threshold (the float nearest 0.7). -/
abbrev simThr : EReal := Ideal.ofBits .f32 0x3F333333#32
/-- The viral-ratio threshold (the float nearest 0.2). -/
abbrev ratioThr : EReal := Ideal.ofBits .f32 0x3E4CCCCD#32
/-- The fill a masked similarity takes before the row maximum (the float nearest -1e30). -/
abbrev maskFill : EReal := Ideal.ofBits .f32 0xF149F2CA#32
/-- The value the row maximum starts from (the pattern of -∞). -/
abbrev maxInit : EReal := Ideal.ofBits .f32 0xFF800000#32
/-- The floor of the softmax normaliser (the float nearest 1e-30). -/
abbrev denFloor : EReal := Ideal.ofBits .f32 0x0DA24260#32
/-- One half, against which a float flag is compared. -/
abbrev half : EReal := Ideal.ofBits .f32 0x3F000000#32

/-- The pattern `0x3F000000` is the real one half. -/
theorem half_eq : half = ((1 / 2 : ℝ) : EReal) := by
  simp [half, Ideal.ofBits, Ideal.ieee, -EReal.coe_mul]; norm_num

/-! ## The masks -/

/-- Neighbour `k` is kept: its similarity exceeds the threshold. -/
def keep (s : Fin 32 → EReal) (k : Fin 32) : BitVec 1 := Ideal.cmp .ogt (s k) simThr

/-- Neighbour `k` is viral: flagged (a bit) and kept. -/
def viral (s : Fin 32 → EReal) (b : Fin 32 → BitVec 1) (k : Fin 32) : BitVec 1 := IntOp.andi (b k) (keep s k)

/-- The same from a FLOAT flag: above one half, and kept. -/
def viralF (s : Fin 32 → EReal) (f : Fin 32 → EReal) (k : Fin 32) : BitVec 1 :=
  IntOp.andi (Ideal.cmp .ogt (f k) half) (keep s k)

/-- A bit read unsigned as a real, compared against one half, is the bit. -/
theorem cmp_half_toNat (b : BitVec 1) : Ideal.cmp .ogt (((b.toNat : ℝ)) : EReal) half = b := by
  rcases BitVec.eq_zero_or_eq_one b with h | h <;> subst h
  · have hlt : ¬ (half < (((0 : ℕ) : ℝ) : EReal)) := by
      rw [half_eq, EReal.coe_lt_coe_iff]; norm_num
    show BitVec.ofBool (decide (half < (((0 : ℕ) : ℝ) : EReal))) = 0#1
    rw [decide_eq_false hlt]; rfl
  · have hlt : half < (((1 : ℕ) : ℝ) : EReal) := by
      rw [half_eq, EReal.coe_lt_coe_iff]; norm_num
    show BitVec.ofBool (decide (half < (((1 : ℕ) : ℝ) : EReal))) = 1#1
    rw [decide_eq_true hlt]; rfl

/-- So the float-flag mask of flags that ARE bits read as reals is the bit mask. -/
theorem viralF_uitofp (s : Fin 32 → EReal) (b : Fin 32 → BitVec 1) :
    viralF s (fun k => (((b k).toNat : ℝ) : EReal)) = viral s b := by
  funext k
  unfold viralF viral
  rw [cmp_half_toNat]

/-! ## The softmax-weighted sum over a mask, shared by both programs -/

/-- The row maximum of the similarities, the masked ones at the fill, from the pattern of -∞. -/
def rowMax (v : Fin 32 → BitVec 1) (s : Fin 32 → EReal) : EReal :=
  (Finset.univ : Finset (Fin 32)).fold max maxInit (fun k => Scalar.select (v k) (s k) maskFill)

/-- The exponential of a similarity less the row maximum; `0` where masked. -/
def rowExp (v : Fin 32 → BitVec 1) (s : Fin 32 → EReal) (k : Fin 32) : EReal :=
  Scalar.select (v k) (Ideal.exp (s k - rowMax v s)) 0

/-- The normaliser: the sum of those exponentials, floored. -/
def rowDen (v : Fin 32 → BitVec 1) (s : Fin 32 → EReal) : EReal := max (∑ k : Fin 32, rowExp v s k) denFloor

/-- The weighted sum of the counts. -/
def rowPred (v : Fin 32 → BitVec 1) (s q : Fin 32 → EReal) : EReal :=
  ∑ k : Fin 32, Ideal.div (rowExp v s k) (rowDen v s) * q k

/-- The row's result: the weighted sum if the row is valid, else `0`. -/
def rowOut (valid : BitVec 1) (v : Fin 32 → BitVec 1) (s q : Fin 32 → EReal) : EReal :=
  Scalar.select valid (rowPred v s q) 0

/-! ## Counting a mask, two ways -/

/-- How many of the 32 bits are set. -/
def ones (p : Fin 32 → BitVec 1) : ℕ := ((Finset.univ : Finset (Fin 32)).filter fun k => p k = 1#1).card

theorem ones_le (p : Fin 32 → BitVec 1) : ones p ≤ 32 := by
  unfold ones
  exact (Finset.card_filter_le _ _).trans (by simp)

/-- The count as 32-bit integer addition of the widened bits, from zero. -/
def cntI (p : Fin 32 → BitVec 1) : BitVec 32 :=
  (Finset.univ : Finset (Fin 32)).fold IntOp.addi 0#32 (fun k => (p k).setWidth 32)

/-- The count as a float sum of the widened bits, each read signed. -/
def cntF (p : Fin 32 → BitVec 1) : EReal := ∑ k : Fin 32, ((((p k).setWidth 32).toInt : ℝ) : EReal)

theorem cntI_eq (p : Fin 32 → BitVec 1) : cntI p = BitVec.ofNat 32 (ones p) :=
  IndicatorCount.fold_addi_setWidth_eq_card p Finset.univ

/-- A finite sum of reals, each read as an extended real, is the real sum read as one. -/
theorem coe_sum {ι : Type} (S : Finset ι) (f : ι → ℝ) : ∑ k ∈ S, ((f k : ℝ) : EReal) = ((∑ k ∈ S, f k : ℝ) : EReal) := by
  classical
  induction S using Finset.induction_on with
  | empty => simp
  | insert a S ha ih => rw [Finset.sum_insert ha, Finset.sum_insert ha, ih, EReal.coe_add]

/-- A widened bit read signed is the real 1 or 0. -/
theorem toInt_setWidth_bit (b : BitVec 1) : ((b.setWidth 32).toInt : ℝ) = if b = 1#1 then (1 : ℝ) else 0 := by
  rcases BitVec.eq_zero_or_eq_one b with h | h <;> subst h
  · have e : ((0#1 : BitVec 1).setWidth 32).toInt = 0 := by decide
    rw [e, if_neg (by decide)]; norm_num
  · have e : ((1#1 : BitVec 1).setWidth 32).toInt = 1 := by decide
    rw [e, if_pos rfl]; norm_num

theorem cntF_eq (p : Fin 32 → BitVec 1) : cntF p = ((ones p : ℝ) : EReal) := by
  unfold cntF
  rw [coe_sum]
  congr 1
  simp only [toInt_setWidth_bit]
  rw [Finset.sum_boole]
  rfl

/-! ## Validity, two ways, and their agreement -/

/-- From the integer counts: both positive as signed words, and the quotient of their signed readings (the kept
    count raised to at least one) at least the ratio. -/
def validI (nk nv : BitVec 32) : BitVec 1 :=
  IntOp.andi (IntOp.andi (IntOp.cmpi .sgt nk 0#32) (IntOp.cmpi .sgt nv 0#32))
    (Ideal.cmp .oge (Ideal.div ((nv.toInt : ℝ) : EReal) (((IntOp.maxsi nk 1#32).toInt : ℝ) : EReal)) ratioThr)

/-- From the float counts. -/
def validF (nk nv : EReal) : BitVec 1 :=
  IntOp.andi (IntOp.andi (Ideal.cmp .ogt nk 0) (Ideal.cmp .ogt nv 0))
    (Ideal.cmp .oge (Ideal.div nv (max nk 1)) ratioThr)

/-- Words below 33 read signed are themselves, … -/
theorem small_toInt : ∀ n : Fin 33, (BitVec.ofNat 32 n.val).toInt = (n.val : ℤ) := by decide
/-- … are positive as signed words exactly when positive, … -/
theorem small_sgt : ∀ n : Fin 33, IntOp.cmpi .sgt (BitVec.ofNat 32 n.val) 0#32 = BitVec.ofBool (decide (0 < n.val)) := by decide
/-- … and their signed maximum with one is the maximum with one. -/
theorem small_maxsi : ∀ n : Fin 33, (IntOp.maxsi (BitVec.ofNat 32 n.val) 1#32).toInt = ((max n.val 1 : ℕ) : ℤ) := by decide

theorem cmp_pos_nat (a : ℕ) : Ideal.cmp .ogt ((a : ℝ) : EReal) 0 = BitVec.ofBool (decide (0 < a)) := by
  show BitVec.ofBool (decide ((0 : EReal) < ((a : ℝ) : EReal))) = _
  congr 1
  rw [decide_eq_decide, ← EReal.coe_zero, EReal.coe_lt_coe_iff]
  exact Nat.cast_pos

theorem max_one_nat (a : ℕ) : max ((a : ℝ) : EReal) 1 = ((((max a 1 : ℕ) : ℤ) : ℝ) : EReal) := by
  rw [← EReal.coe_one, ← EReal.coe_strictMono.monotone.map_max, Int.cast_natCast, Nat.cast_max, Nat.cast_one]

/-- For counts of at most 32 the two validity bits are one. -/
theorem valid_eq (a b : ℕ) (ha : a ≤ 32) (hb : b ≤ 32) :
    validF ((a : ℝ) : EReal) ((b : ℝ) : EReal) = validI (BitVec.ofNat 32 a) (BitVec.ofNat 32 b) := by
  have tb : (BitVec.ofNat 32 b).toInt = (b : ℤ) := small_toInt ⟨b, by omega⟩
  have sa : IntOp.cmpi .sgt (BitVec.ofNat 32 a) 0#32 = BitVec.ofBool (decide (0 < a)) := small_sgt ⟨a, by omega⟩
  have sb : IntOp.cmpi .sgt (BitVec.ofNat 32 b) 0#32 = BitVec.ofBool (decide (0 < b)) := small_sgt ⟨b, by omega⟩
  have ma : (IntOp.maxsi (BitVec.ofNat 32 a) 1#32).toInt = ((max a 1 : ℕ) : ℤ) := small_maxsi ⟨a, by omega⟩
  unfold validF validI
  rw [sa, sb, tb, ma, cmp_pos_nat, cmp_pos_nat, max_one_nat]
  simp only [Int.cast_natCast]

/-! ## The two rows -/

/-- The row as the program that counts in floats computes it, from float flags. -/
def kerRow (s f q : Fin 32 → EReal) : EReal :=
  rowOut (validF (cntF (keep s)) (cntF (viralF s f))) (viralF s f) s q

/-- The row as the program that counts in integers computes it, from bit flags. -/
def refRow (s : Fin 32 → EReal) (b : Fin 32 → BitVec 1) (q : Fin 32 → EReal) : EReal :=
  rowOut (validI (cntI (keep s)) (cntI (viral s b))) (viral s b) s q

/-- On flags that are bits read as reals the two rows are one. -/
theorem kerRow_eq_refRow (s : Fin 32 → EReal) (b : Fin 32 → BitVec 1) (q : Fin 32 → EReal) :
    kerRow s (fun k => (((b k).toNat : ℝ) : EReal)) q = refRow s b q := by
  unfold kerRow refRow
  rw [viralF_uitofp, cntF_eq, cntF_eq, cntI_eq, cntI_eq, valid_eq _ _ (ones_le _) (ones_le _)]

end Cert.KnnRow

end
-- ==== Proof.LibColumn.lean ====
/-
  A vector kept as a column. A row reduction with `keepdims` leaves a length-`a` vector that is cast to the column
  shape `[a, 1]` and then broadcast along the rows to `[a, b]`. Read at an index given by coordinates: the column at
  `(i, z)` is the vector at `i`, and the broadcast at `(i, j)` is the column at `(i, 0)`.
-/
import Idealize.ShloMosaic.Lib.Pipeline.Value
import Idealize.ShloMosaic.Lib.ValueIdx

namespace Idealize.ShloMosaic.ValueIdx

open Idealize.ShloMosaic

variable {α : Type}

/-- A length-`a` vector cast to the column `[a, 1]` reads, at `(i, z)`, the vector at `i`: both positions are `i` in
    row-major order, the column's second coordinate being `0`. -/
theorem shapeCast_a_a1_apply {a : ℕ} (x : (⟨1, ![a]⟩ : Shape).Idx → α)
    (h : (⟨1, ![a]⟩ : Shape).ShapeCasts ⟨2, ![a, 1]⟩) (i : Fin a) (z : Fin 1) :
    shapeCast ⟨2, ![a, 1]⟩ x h (ix2 i z) = x (ix1 i) :=
  shapeCast_apply x h _ _ (by
    have hz : z.val = 0 := by omega
    rw [Shape.rowMajor_val_one, Shape.rowMajor_val_two]
    show i.val = i.val * 1 + z.val
    rw [hz, Nat.mul_one, Nat.add_zero])

/-- A column `[a, 1]` broadcast to `[a, b]` reads, at `(i, j)`, the column at `(i, 0)`: the row coordinate is kept (or
    is `0` anyway when `a = 1`), the unit axis reads its only coordinate. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Idealize.ShloMosaic.ValueIdx
-- ==== Proof.KerRow.lean ====
/-
  What the kernel body stores for row `p` of a block, as a function of the three loaded blocks: `KnnRow.kerRow` of that
  row's similarities, float flags and counts.

  The body's arithmetic is a tree of pure vector operations. Its four sums and its maximum over the 32 lanes of a row are
  a sum and a fold over the row's coordinates; the two values kept as columns (`keepdims`) read, at `(p, k)`, the
  reduced vector at `p`; every other operation acts element by element.
-/
import proofs.«107667_j60370060313142_2_alg».proof.Proof.Gen.KernelIdeal.Skeleton
import proofs.«107667_j60370060313142_2_alg».proof.Proof.RowSpec
import proofs.«107667_j60370060313142_2_alg».proof.Proof.LibColumn
import Idealize.ShloMosaic.Lib.ValueIdx
import Idealize.ShloMosaic.Lib.IdealHost
import Idealize.ShloMosaic.Lib.Pipeline.Value
import Idealize.ShloMosaic.PureOps.Ideal.Laws

noncomputable section

open scoped BigOperators

namespace Cert.KernelIdeal.KerRow

open Cert.KernelIdeal Cert.KernelIdeal.Gen Idealize.ShloMosaic Idealize.ShloMosaic.ValueIdx Cert.KnnRow

variable (P0 P1 P2 : Vec Ideal S8192x32 .f32)

/-! ## Row `p`'s data -/

/-- The similarities of row `p` of the block. -/
abbrev sRow (p : Fin 8192) : Fin 32 → EReal := fun k => P0 (ix2 p k)
/-- The float flags of row `p`. -/
abbrev fRow (p : Fin 8192) : Fin 32 → EReal := fun k => P1 (ix2 p k)
/-- The counts of row `p`. -/
abbrev qRow (p : Fin 8192) : Fin 32 → EReal := fun k => P2 (ix2 p k)
/-- The viral mask of row `p`. -/
abbrev vRow (p : Fin 8192) : Fin 32 → BitVec 1 := viralF (sRow P0 p) (fRow P1 p)

/-! ## A reduction over the lanes of a row -/

/-- Row `p` with lane `k` inserted on the reduced axis is the index `(p, k)`. -/
theorem lift_row (p : Fin 8192) (k : Fin 32) : reduces_S8192x32_S8192.lift (ix1 p) k = ix2 p k :=
  funext fun a => Fin.ext (by match a with | ⟨0, _⟩ => rfl | ⟨1, _⟩ => rfl)

/-- A lane sum at row `p` is the sum over the row. -/
theorem sum_row (src : FVec Ideal S8192x32 .f32) (p : Fin 8192) :
    multiReduction .add [1] S8192 src 0x00000000#32 reduces_S8192x32_S8192 (.inl rfl) rfl (ix1 p)
      = ∑ k : Fin 32, src (ix2 p k) := by
  refine (Ideal.multiReduction_add_single src 0x00000000#32 reduces_S8192x32_S8192 (.inl rfl) rfl (ix1 p)).trans ?_
  exact Finset.sum_congr rfl (fun k _ => congrArg src (lift_row p k))

/-- A lane maximum at row `p` is the fold of `max` over the row, from the pattern of -∞. -/
theorem max_row (src : FVec Ideal S8192x32 .f32) (p : Fin 8192) :
    multiReduction .maximumf [1] S8192 src 0xFF800000#32 reduces_S8192x32_S8192 (.inl rfl) rfl (ix1 p)
      = (Finset.univ : Finset (Fin 32)).fold max maxInit (fun k => src (ix2 p k)) := by
  refine (Ideal.multiReduction_maximumf_single src 0xFF800000#32 reduces_S8192x32_S8192 (.inl rfl) rfl (ix1 p)).trans ?_
  exact Finset.fold_congr (fun k _ => congrArg src (lift_row p k))

/-! ## The masks and the counts -/

theorem keep_at (p : Fin 8192) (k : Fin 32) : k0_pay3 P0 (ix2 p k) = keep (sRow P0 p) k := rfl

theorem viral_at (p : Fin 8192) (k : Fin 32) : k0_pay4 P0 P1 (ix2 p k) = vRow P0 P1 p k := by
  unfold k0_pay4
  show IntOp.andi (Ideal.cmp .ogt (shapeCast S8192x32 P1 shapeCasts_S8192x32_S8192x32 (ix2 p k)) half) (k0_pay3 P0 (ix2 p k)) = _
  rw [shapeCast_self]
  rfl

/-- The kept count of every row, as the body computes it. -/
abbrev nkVec : FVec Ideal S8192 .f32 :=
  multiReduction .add [1] S8192 (sitofp .f32 (extui 32 (k0_pay3 P0) natLt_1_32)) 0x00000000#32 reduces_S8192x32_S8192 (.inl rfl) rfl
/-- The viral count of every row, as the body computes it. -/
abbrev nvVec : FVec Ideal S8192 .f32 :=
  multiReduction .add [1] S8192 (sitofp .f32 (extui 32 (k0_pay4 P0 P1) natLt_1_32)) 0x00000000#32 reduces_S8192x32_S8192 (.inl rfl) rfl

theorem nk_at (p : Fin 8192) : nkVec P0 (ix1 p) = cntF (keep (sRow P0 p)) :=
  (sum_row _ p).trans rfl

theorem nv_at (p : Fin 8192) : nvVec P0 P1 (ix1 p) = cntF (vRow P0 P1 p) := by
  refine (sum_row _ p).trans ?_
  unfold cntF
  refine Finset.sum_congr rfl fun k _ => ?_
  show ((((k0_pay4 P0 P1 (ix2 p k)).setWidth 32).toInt : ℝ) : EReal) = _
  rw [viral_at]

theorem valid_at (p : Fin 8192) :
    k0_pay5 P0 P1 (ix1 p) = validF (cntF (keep (sRow P0 p))) (cntF (vRow P0 P1 p)) := by
  unfold k0_pay5
  show IntOp.andi (IntOp.andi (Ideal.cmp .ogt (nkVec P0 (ix1 p)) (Ideal.ofBits .f32 0x00000000#32))
        (Ideal.cmp .ogt (nvVec P0 P1 (ix1 p)) (Ideal.ofBits .f32 0x00000000#32)))
      (Ideal.cmp .oge (Ideal.div (nvVec P0 P1 (ix1 p)) (max (nkVec P0 (ix1 p)) (Ideal.ofBits .f32 0x3F800000#32))) ratioThr) = _
  rw [Ideal.ofBits_zero_f32, Ideal.ofBits_one_f32, nk_at, nv_at]
  rfl

/-! ## The softmax -/

/-- The row maximum of every row, as the body computes it. -/
abbrev maxVec : FVec Ideal S8192 .f32 :=
  multiReduction .maximumf [1] S8192 (select (k0_pay4 P0 P1) P0 (broadcast S8192x32 (Scalar.ofBits .f32 0xF149F2CA#32)))
    0xFF800000#32 reduces_S8192x32_S8192 (.inl rfl) rfl

theorem max_at (p : Fin 8192) : maxVec P0 P1 (ix1 p) = rowMax (vRow P0 P1 p) (sRow P0 p) := by
  refine (max_row _ p).trans ?_
  unfold rowMax
  refine Finset.fold_congr fun k _ => ?_
  show Scalar.select (k0_pay4 P0 P1 (ix2 p k)) (P0 (ix2 p k)) maskFill = _
  rw [viral_at]

theorem exp_at (p : Fin 8192) (k : Fin 32) : k0_pay6 P0 P1 (ix2 p k) = rowExp (vRow P0 P1 p) (sRow P0 p) k := by
  have hb : broadcastTo S8192x32 (shapeCast S8192x1 (maxVec P0 P1) shapeCasts_S8192_S8192x1) broadcasts_S8192x1_S8192x32 (ix2 p k)
      = rowMax (vRow P0 P1 p) (sRow P0 p) :=
    (broadcastTo_a1_ab_apply _ broadcasts_S8192x1_S8192x32 p k).trans
      ((shapeCast_a_a1_apply _ shapeCasts_S8192_S8192x1 p 0).trans (max_at P0 P1 p))
  unfold k0_pay6
  show Scalar.select (k0_pay4 P0 P1 (ix2 p k))
      (Ideal.exp (P0 (ix2 p k) - broadcastTo S8192x32 (shapeCast S8192x1 (maxVec P0 P1) shapeCasts_S8192_S8192x1) broadcasts_S8192x1_S8192x32 (ix2 p k)))
      (Ideal.ofBits .f32 0x00000000#32) = _
  rw [hb, viral_at, Ideal.ofBits_zero_f32]
  rfl

theorem den_at (p : Fin 8192) (z : Fin 1) : k0_pay7 P0 P1 (ix2 p z) = rowDen (vRow P0 P1 p) (sRow P0 p) := by
  unfold k0_pay7
  show max (shapeCast S8192x1 (multiReduction .add [1] S8192 (k0_pay6 P0 P1) 0x00000000#32 reduces_S8192x32_S8192 (.inl rfl) rfl)
      shapeCasts_S8192_S8192x1 (ix2 p z)) denFloor = _
  unfold rowDen
  refine congrArg (max · denFloor) ?_
  refine (shapeCast_a_a1_apply _ shapeCasts_S8192_S8192x1 p z).trans ?_
  refine (sum_row _ p).trans ?_
  exact Finset.sum_congr rfl fun k _ => exp_at P0 P1 p k

/-! ## The row -/

/-- What the body stores at row `p`. -/
theorem ker_row (p : Fin 8192) :
    k0_pay1 (k0_pay2 P2) (k0_pay5 P0 P1) (k0_pay6 P0 P1) (k0_pay7 P0 P1) (ix1 p)
      = kerRow (sRow P0 p) (fRow P1 p) (qRow P2 p) := by
  unfold k0_pay1
  show Scalar.select (k0_pay5 P0 P1 (ix1 p))
      (multiReduction .add [1] S8192
        (mulf (divf (k0_pay6 P0 P1) (broadcastTo S8192x32 (k0_pay7 P0 P1) broadcasts_S8192x1_S8192x32)) (k0_pay2 P2))
        0x00000000#32 reduces_S8192x32_S8192 (.inl rfl) rfl (ix1 p))
      (Ideal.ofBits .f32 0x00000000#32) = _
  rw [valid_at, Ideal.ofBits_zero_f32]
  unfold kerRow rowOut
  refine congrArg (Scalar.select (validF (cntF (keep (sRow P0 p))) (cntF (vRow P0 P1 p))) · 0) ?_
  refine (sum_row _ p).trans ?_
  unfold rowPred
  refine Finset.sum_congr rfl fun k _ => ?_
  have hd : broadcastTo S8192x32 (k0_pay7 P0 P1) broadcasts_S8192x1_S8192x32 (ix2 p k) = rowDen (vRow P0 P1 p) (sRow P0 p) :=
    (broadcastTo_a1_ab_apply _ broadcasts_S8192x1_S8192x32 p k).trans (den_at P0 P1 p 0)
  have hq : k0_pay2 P2 (ix2 p k) = P2 (ix2 p k) := by
    unfold k0_pay2
    rw [shapeCast_self]
  show Ideal.div (k0_pay6 P0 P1 (ix2 p k)) (broadcastTo S8192x32 (k0_pay7 P0 P1) broadcasts_S8192x1_S8192x32 (ix2 p k))
      * k0_pay2 P2 (ix2 p k) = _
  rw [exp_at, hd, hq]

end Cert.KernelIdeal.KerRow

end
-- ==== Proof.ArraySpec.lean ====
/-
  The whole result array: element `r` is the row function `KnnRow.refRow` of row `r` of the similarities, of the
  gathered flags and of the gathered counts — one function of three [524288, 32] arrays, index by index.
-/
import proofs.«107667_j60370060313142_2_alg».proof.Proof.RowSpec
import Idealize.ShloMosaic.Lib.ValueIdx

noncomputable section

namespace Cert.KnnRow

open Idealize.ShloMosaic Idealize.ShloMosaic.ValueIdx

/-- The shape of the three per-neighbour arrays. -/
abbrev SRows : Shape := ⟨2, ![524288, 32]⟩
/-- The shape of the result. -/
abbrev SOut : Shape := ⟨1, ![524288]⟩

/-- The result array as a function of the similarities, the gathered flags (bits) and the gathered counts. -/
def G (sims : SRows.Idx → EReal) (flags : SRows.Idx → BitVec 1) (cnts : SRows.Idx → EReal) : SOut.Idx → EReal :=
  fun i => refRow (fun k => sims (ix2 (i 0) k)) (fun k => flags (ix2 (i 0) k)) (fun k => cnts (ix2 (i 0) k))

theorem G_apply (sims : SRows.Idx → EReal) (flags : SRows.Idx → BitVec 1) (cnts : SRows.Idx → EReal) (r : Fin 524288) :
    G sims flags cnts (ix1 r) = refRow (fun k => sims (ix2 r k)) (fun k => flags (ix2 r k)) (fun k => cnts (ix2 r k)) := rfl

end Cert.KnnRow

end
-- ==== Proof.Blocks.lean ====
/-
  From the blocks to the array. Grid point `t` of the 64 works on rows `8192·t … 8192·t + 8191`: its three input blocks
  are those rows of the similarities and of the two gathered arrays, and the block it writes back is those rows of the
  result. Each written row is the row function of the same row of the inputs (`KerRow.ker_row`), the 64 blocks tile
  the 524288 rows, so after the run the result array is ONE function of the arrays the region found (`final`).

  The two gathered arrays are what the host operations before the region left: the flags gathered as bits and then
  converted to the floats 0 and 1, and the counts gathered as they are. On float flags that are bits read as reals the
  float-counting row is the integer-counting row (`KnnRow.kerRow_eq_refRow`), which gives the array as `KnnRow.G` of
  the similarities, the gathered bits and the gathered counts.
-/
import proofs.«107667_j60370060313142_2_alg».proof.Proof.ValueP
import proofs.«107667_j60370060313142_2_alg».proof.Proof.KerRow
import proofs.«107667_j60370060313142_2_alg».proof.Proof.ArraySpec
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Blocks

open Cert.KernelIdeal Cert.KernelIdeal.Gen Cert.KernelIdeal.ValueP Idealize.ShloMosaic.ValueIdx Cert.KnnRow

variable (m : (ℓ : Loc nD τ sig) → Buf (Elt Ideal) ℓ) (ρ : Dev nD → PrngReg)

/-! ## What the host operations before the region leave -/

/-- The flags gathered at the (wrapped) neighbour indices, as bits. -/
abbrev flagsK (c : Dev nD) : S524288x32.Idx → BitVec 1 :=
  Host.gather gather_S2000000_S524288x32x1_S524288x32_n_0_n_n_0_2_1 (m ((c : Thread nD τ).loc main_arg2))
    (broadcastInDim S524288x32x1 ![0, 1] bcast_S524288x32_S524288x32x1_0_1
      (select (cmpi .slt (m ((c : Thread nD τ).loc main_arg1)) (broadcastInDim S524288x32 ![] bcast_S_S524288x32 (constantI S_ 32 0#32)))
        (addi (m ((c : Thread nD τ).loc main_arg1)) (broadcastInDim S524288x32 ![] bcast_S_S524288x32 (constantI S_ 32 2000000#32)))
        (m ((c : Thread nD τ).loc main_arg1))))

/-- The counts gathered at the same indices. -/
abbrev countsK (c : Dev nD) : S524288x32.Idx → EReal :=
  Host.gather gather_S2000000_S524288x32x1_S524288x32_n_0_n_n_0_2_1 (m ((c : Thread nD τ).loc main_arg3))
    (broadcastInDim S524288x32x1 ![0, 1] bcast_S524288x32_S524288x32x1_0_1
      (select (cmpi .slt (m ((c : Thread nD τ).loc main_arg1)) (broadcastInDim S524288x32 ![] bcast_S_S524288x32 (constantI S_ 32 0#32)))
        (addi (m ((c : Thread nD τ).loc main_arg1)) (broadcastInDim S524288x32 ![] bcast_S_S524288x32 (constantI S_ 32 2000000#32)))
        (m ((c : Thread nD τ).loc main_arg1))))

/-- The region finds the flags as the gathered bits converted to floats. -/
theorem V_flags (c : Dev nD) : (V m c main_v14 : S524288x32.Idx → EReal) = uitofp (F := Ideal) .f32 (flagsK m c) := by
  dsimp only [Gen.V, Gen.hostOps0]; after_results

/-- The region finds the counts as gathered. -/
theorem V_counts (c : Dev nD) : (V m c main_v13 : S524288x32.Idx → EReal) = countsK m c := by
  dsimp only [Gen.V, Gen.hostOps0]; after_results

/-! ## The index maps, decided over the 64 points -/

theorem hz2 : (![0, 0] : Fin 2 → Nat) = fun _ => 0 := funext fun a => by fin_cases a <;> rfl
theorem hz1 : (![0] : Fin 1 → Nat) = fun _ => 0 := funext fun a => by fin_cases a <;> rfl

/-- Every window is on block row `t` at point `t`, the inputs on block column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 1) = t.val :=
  (by decide +kernel : ∀ t : Fin grid0.N, _)

theorem N64 : cfg0.N = 64 := N_0

/-- Row `p` of point `t`'s block is row `8192·t + p` of the array. -/
def rowOf (t : Fin cfg0.N) (p : Fin 8192) : Fin 524288 :=
  ⟨t.val * 8192 + p.val, by have := t.isLt; have := N64; have := p.isLt; omega⟩

/-! ## Each input block, read at a row and a lane, is the array at that row of the point -/

theorem iblk0_at (c : Dev nD) (t : Fin cfg0.N) (p : Fin 8192) (k : Fin 32) :
    (iblk m c 0 t : Vec Ideal S8192x32 .f32) (ix2 p k) = (V m c main_arg0 : S524288x32.Idx → EReal) (ix2 (rowOf t p) k) := by
  obtain ⟨e0, e1, -⟩ := idx_facts t
  unfold iblk
  rw [View.read_apply]
  show V m c main_arg0 _ = V m c main_arg0 _
  refine congrArg _ (funext fun a => Fin.ext ?_)
  match a with
  | ⟨0, _⟩ => show win0_0.index t (0 : Fin 2) * 8192 + 1 * p.val = t.val * 8192 + p.val; rw [e0]; omega
  | ⟨1, _⟩ => show win0_0.index t (1 : Fin 2) * 32 + 1 * k.val = k.val; rw [e1]; omega

theorem iblk1_at (c : Dev nD) (t : Fin cfg0.N) (p : Fin 8192) (k : Fin 32) :
    (iblk m c 1 t : Vec Ideal S8192x32 .f32) (ix2 p k) = (V m c main_v14 : S524288x32.Idx → EReal) (ix2 (rowOf t p) k) := by
  obtain ⟨-, -, e0, e1, -⟩ := idx_facts t
  unfold iblk
  rw [View.read_apply]
  show V m c main_v14 _ = V m c main_v14 _
  refine congrArg _ (funext fun a => Fin.ext ?_)
  match a with
  | ⟨0, _⟩ => show win0_1.index t (0 : Fin 2) * 8192 + 1 * p.val = t.val * 8192 + p.val; rw [e0]; omega
  | ⟨1, _⟩ => show win0_1.index t (1 : Fin 2) * 32 + 1 * k.val = k.val; rw [e1]; omega

theorem iblk2_at (c : Dev nD) (t : Fin cfg0.N) (p : Fin 8192) (k : Fin 32) :
    (iblk m c 2 t : Vec Ideal S8192x32 .f32) (ix2 p k) = (V m c main_v13 : S524288x32.Idx → EReal) (ix2 (rowOf t p) k) := by
  obtain ⟨-, -, -, -, e0, e1, -⟩ := idx_facts t
  unfold iblk
  rw [View.read_apply]
  show V m c main_v13 _ = V m c main_v13 _
  refine congrArg _ (funext fun a => Fin.ext ?_)
  match a with
  | ⟨0, _⟩ => show win0_2.index t (0 : Fin 2) * 8192 + 1 * p.val = t.val * 8192 + p.val; rw [e0]; omega
  | ⟨1, _⟩ => show win0_2.index t (1 : Fin 2) * 32 + 1 * k.val = k.val; rw [e1]; omega

/-! ## The array the run leaves -/

/-- The result array as the row function of the arrays the region found, row by row. -/
def Gk (c : Dev nD) : S524288.Idx → EReal := fun i =>
  kerRow (fun k => (V m c main_arg0 : S524288x32.Idx → EReal) (ix2 (i 0) k))
    (fun k => (V m c main_v14 : S524288x32.Idx → EReal) (ix2 (i 0) k))
    (fun k => (V m c main_v13 : S524288x32.Idx → EReal) (ix2 (i 0) k))

/-- WHAT POINT `t` WRITES BACK is block `t` of `Gk`. -/
theorem flushed_eq (c : Dev nD) (t : Fin cfg0.N) :
    (dats m 0 c).flushed 3 t = ((cfg0.win 3).blk t).view.read (Elt Ideal) (Gk m c) := by
  rw [flushed3]
  unfold out0_3
  rw [View.canon_unit_zero hz1]
  simp only [View.ld_unit_zero (S := S8192x32) hz2]
  obtain ⟨-, -, -, -, -, -, e3⟩ := idx_facts t
  funext j
  obtain ⟨p, rfl⟩ : ∃ p : Fin 8192, j = ix1 p := ⟨j 0, eq_ix1 j⟩
  show k0_pay1 (k0_pay2 (iblk m c 2 t)) (k0_pay5 (iblk m c 0 t) (iblk m c 1 t)) (k0_pay6 (iblk m c 0 t) (iblk m c 1 t))
      (k0_pay7 (iblk m c 0 t) (iblk m c 1 t)) (ix1 p) = Gk m c (((cfg0.win 3).blk t).view.emb (ix1 p))
  refine (KerRow.ker_row (iblk m c 0 t) (iblk m c 1 t) (iblk m c 2 t) p).trans ?_
  have er : (((cfg0.win 3).blk t).view.emb (ix1 p)) 0 = rowOf t p :=
    Fin.ext (by show win0_3.index t (0 : Fin 1) * 8192 + 1 * p.val = t.val * 8192 + p.val; rw [e3]; omega)
  unfold Gk
  rw [er]
  have hs : KerRow.sRow (iblk m c 0 t) p = fun k => (V m c main_arg0 : S524288x32.Idx → EReal) (ix2 (rowOf t p) k) :=
    funext fun k => iblk0_at m c t p k
  have hf : KerRow.fRow (iblk m c 1 t) p = fun k => (V m c main_v14 : S524288x32.Idx → EReal) (ix2 (rowOf t p) k) :=
    funext fun k => iblk1_at m c t p k
  have hq : KerRow.qRow (iblk m c 2 t) p = fun k => (V m c main_v13 : S524288x32.Idx → EReal) (ix2 (rowOf t p) k) :=
    funext fun k => iblk2_at m c t p k
  rw [hs, hf, hq]

/-- An index of the result is in point `t`'s block iff its row is among the point's 8192. -/
theorem mem_blk (t : Fin cfg0.N) (i : S524288.Idx) :
    i ∈ ((cfg0.win 3).blk t).view.set ↔ ∀ a : Fin 1, win0_3.index t a * S8192.size a ≤ (i a).val ∧ (i a).val < win0_3.index t a * S8192.size a + S8192.size a := by
  show i ∈ ((View.whole main_v15).slice (win0_3.rect t)).set ↔ _
  rw [View.set_slice_whole, Rect.mem_set_unit]
  exact Iff.rfl

/-- Every row is in the block of the point `row / 8192`. -/
theorem cover (i : S524288.Idx) : ∃ t : Fin cfg0.N, (cfg0.win 3).flush t = true ∧ i ∈ ((cfg0.win 3).blk t).view.set := by
  have hi : (i 0).val < 524288 := (i 0).isLt
  have hN := N64
  refine ⟨⟨(i 0).val / 8192, by omega⟩, flush0_3 _, ?_⟩
  rw [mem_blk]
  intro a
  obtain ⟨-, -, -, -, -, -, e3⟩ := idx_facts ⟨(i 0).val / 8192, by omega⟩
  match a with
  | ⟨0, _⟩ =>
    show win0_3.index ⟨(i 0).val / 8192, _⟩ (0 : Fin 1) * 8192 ≤ (i 0).val ∧ (i 0).val < win0_3.index ⟨(i 0).val / 8192, _⟩ (0 : Fin 1) * 8192 + 8192
    rw [e3]
    show (i 0).val / 8192 * 8192 ≤ (i 0).val ∧ (i 0).val < (i 0).val / 8192 * 8192 + 8192
    omega

/-- THE ARRAY after the run. -/
theorem final_k (c : Dev nD) : (dats m 0 c).arrAt 3 cfg0.N = Gk m c :=
  (dats m 0 c).arrAt_eq_of_cover 3 (Gk m c) (fun t _ => flushed_eq m c t) (cover)

/-- The same array as `KnnRow.G` of the similarities, the gathered bits and the gathered counts. -/
theorem Gk_eq (c : Dev nD) : Gk m c = G (m ((c : Thread nD τ).loc main_arg0)) (flagsK m c) (countsK m c) := by
  funext i
  unfold Gk
  rw [V_flags, V_counts, V_main_arg0]
  exact kerRow_eq_refRow _ (fun k => flagsK m c (ix2 (i 0) k)) _

/-- The kernel's run, read: the result array at `G` of the arguments, the arguments unchanged. -/
theorem run : θ_run defs (onTc (τ := τ) (main (F := Ideal))) ⟨m, fun _ => 0, ρ⟩ fun r => ∀ c : Dev nD,
      r.2.mem ((c : Thread nD τ).loc main_v15) = G (m ((c : Thread nD τ).loc main_arg0)) (flagsK m c) (countsK m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final_k m c).trans (Gk_eq m c)), (h c).2⟩)
    (ValueP.run_blocks m ρ)

end Cert.KernelIdeal.Blocks

end
-- ==== Proof.RefRow.lean ====
/-
  The reference program's result at row `r`, read off its operations one at a time, is `KnnRow.refRow` of that row's
  similarities, gathered flags and gathered counts.

  The three reductions over the 32 neighbours of a row — the two integer counts and the row maximum — are folds over the
  row's coordinates (a one-axis `stablehlo.reduce` with a commutative, associative body); the two float sums are the
  initial `0` plus the sum over the row; every other operation acts on one element, so it reads at an index by unfolding.
  The two gathers are never opened: the flags and counts they produce enter as the row's data.
-/
import proofs.«107667_j60370060313142_2_alg».proof.Proof.ReadP
import proofs.«107667_j60370060313142_2_alg».proof.Proof.RowSpec
import Idealize.ShloMosaic.Lib.ValueIdx
import Idealize.ShloMosaic.Lib.IdealHost

noncomputable section

open scoped BigOperators

namespace Cert.ReferenceIdeal.RefRow

open Cert.ReferenceIdeal Cert.ReferenceIdeal.Gen Cert.ReferenceIdeal.ReadP Idealize.ShloMosaic Idealize.ShloMosaic.ValueIdx Cert.KnnRow

variable (x0 : (⟨S524288x32, .f32⟩ : BufTy).Contents (Elt Ideal)) (x1 : (⟨S524288x32, .i32⟩ : BufTy).Contents (Elt Ideal))
  (x2 : (⟨S2000000, .i1⟩ : BufTy).Contents (Elt Ideal)) (x3 : (⟨S2000000, .f32⟩ : BufTy).Contents (Elt Ideal))

/-! ## Row `r`'s data -/

/-- The similarities of row `r`. -/
abbrev sRow (r : Fin 524288) : Fin 32 → EReal := fun k => x0 (ix2 r k)
/-- The gathered flags of row `r`. -/
abbrev bRow (r : Fin 524288) : Fin 32 → BitVec 1 := fun k => val_main_v8 (F := Ideal) x1 x2 (ix2 r k)
/-- The gathered counts of row `r`. -/
abbrev qRow (r : Fin 524288) : Fin 32 → EReal := fun k => val_main_v46 (F := Ideal) x1 x3 (ix2 r k)
/-- The viral mask of row `r`. -/
abbrev vRow (r : Fin 524288) : Fin 32 → BitVec 1 := viral (sRow x0 r) (bRow x1 x2 r)

/-! ## A reduction over the neighbours of a row is a fold over the row's coordinates -/

theorem hRed : S524288x32.Reduces [1] S524288 := by decide

/-- Row `r` with neighbour `k` inserted on the reduced axis is the index `(r, k)`. -/
theorem lift_row (r : Fin 524288) (k : Fin 32) : hRed.lift (ix1 r) k = ix2 r k :=
  funext fun a => Fin.ext (by match a with | ⟨0, _⟩ => rfl | ⟨1, _⟩ => rfl)

theorem reduce_row {α : Type} (f : α → α → α) [Std.Commutative f] [Std.Associative f] (x : S524288x32.Idx → α)
    (init : S_.Idx → α) (r : Fin 524288) :
    Host.reduce f x init reducesTo_S524288x32_S524288_d1 h_S_ (ix1 r)
      = (Finset.univ : Finset (Fin 32)).fold f (init (Shape.Idx.first h_S_)) (fun k => x (ix2 r k)) := by
  refine (Host.reduce_eq_fold_single f x init reducesTo_S524288x32_S524288_d1 hRed h_S_ (ix1 r)).trans ?_
  exact Finset.fold_congr (fun k _ => congrArg x (lift_row r k))

/-! ## The masks and the counts -/

theorem keep_at (r : Fin 524288) (k : Fin 32) : val_main_v1 (F := Ideal) x0 (ix2 r k) = keep (sRow x0 r) k := by
  rw [val_main_v1_apply, val_main_v0_apply, val_main_cst_apply]
  rfl

theorem viral_at (r : Fin 524288) (k : Fin 32) : val_main_v9 (F := Ideal) x0 x1 x2 (ix2 r k) = vRow x0 x1 x2 r k := by
  rw [val_main_v9_apply, keep_at]
  rfl

theorem nk_at (r : Fin 524288) : val_main_v11 (F := Ideal) x0 (ix1 r) = cntI (keep (sRow x0 r)) := by
  unfold val_main_v11
  refine (reduce_row IntOp.addi _ _ r).trans ?_
  rw [val_main_c_1_apply]
  unfold cntI
  exact Finset.fold_congr fun k _ => by rw [val_main_v10_apply, keep_at]

theorem nv_at (r : Fin 524288) : val_main_v13 (F := Ideal) x0 x1 x2 (ix1 r) = cntI (vRow x0 x1 x2 r) := by
  unfold val_main_v13
  refine (reduce_row IntOp.addi _ _ r).trans ?_
  rw [val_main_c_2_apply]
  unfold cntI
  exact Finset.fold_congr fun k _ => by rw [val_main_v12_apply, viral_at]

theorem valid_at (r : Fin 524288) :
    val_main_v26 (F := Ideal) x0 x1 x2 (ix1 r) = validI (cntI (keep (sRow x0 r))) (cntI (vRow x0 x1 x2 r)) := by
  simp only [val_main_v26_apply, val_main_v23_apply, val_main_v20_apply, val_main_v22_apply, val_main_v25_apply,
    val_main_v18_apply, val_main_v16_apply, val_main_v17_apply, val_main_v15_apply, val_main_v19_apply, val_main_c_4_apply,
    val_main_v21_apply, val_main_c_5_apply, val_main_v14_apply, val_main_c_3_apply, val_main_v24_apply, val_main_cst_6_apply,
    nk_at, nv_at]
  rfl

/-! ## The softmax -/

theorem max_at (r : Fin 524288) : val_main_v28 (F := Ideal) x0 x1 x2 (ix1 r) = rowMax (vRow x0 x1 x2 r) (sRow x0 r) := by
  unfold val_main_v28
  refine (reduce_row FloatOps.maximumf _ _ r).trans ?_
  rw [val_main_cst_8_apply]
  unfold rowMax
  refine Finset.fold_congr fun k _ => ?_
  rw [val_main_v27_apply, viral_at, val_main_call0_v0_apply, val_main_cst_7_apply]
  rfl

theorem exp_at (r : Fin 524288) (k : Fin 32) :
    val_main_v33 (F := Ideal) x0 x1 x2 (ix2 r k) = rowExp (vRow x0 x1 x2 r) (sRow x0 r) k := by
  have hm : val_main_v30 (F := Ideal) x0 x1 x2 (ix2 r k) = rowMax (vRow x0 x1 x2 r) (sRow x0 r) := by
    rw [val_main_v30_apply, val_main_v29_apply, ← max_at]
    exact congrArg _ (funext fun a => Fin.ext (by match a with | ⟨0, _⟩ => rfl))
  rw [val_main_v33_apply, val_main_v32_apply, val_main_v31_apply, hm, viral_at, val_main_call1_v1_apply,
    val_main_call1_v0_apply, val_main_cst_9_apply]
  show Scalar.select _ (Ideal.exp (_ - _)) (Ideal.ofBits .f32 0x00000000#32) = _
  rw [Ideal.ofBits_zero_f32]
  rfl

theorem den_at (r : Fin 524288) (k : Fin 32) :
    val_main_v38 (F := Ideal) x0 x1 x2 (ix2 r k) = rowDen (vRow x0 x1 x2 r) (sRow x0 r) := by
  rw [val_main_v38_apply, val_main_v37_apply, val_main_v36_apply, val_main_cst_11_apply, val_main_v35_apply,
    val_main_v34_apply, val_main_cst_10_apply]
  show max (Ideal.ofBits .f32 0x00000000#32 + _) denFloor = _
  rw [Ideal.ofBits_zero_f32, zero_add]
  unfold rowDen
  refine congrArg (max · denFloor) ?_
  refine Finset.sum_congr rfl fun k' _ => ?_
  rw [← exp_at]
  exact congrArg _ (funext fun a => Fin.ext (by match a with | ⟨0, _⟩ => rfl | ⟨1, _⟩ => rfl))

theorem pred_at (r : Fin 524288) :
    val_main_v48 (F := Ideal) x0 x1 x2 x3 (ix1 r) = rowPred (vRow x0 x1 x2 r) (sRow x0 r) (qRow x1 x3 r) := by
  rw [val_main_v48_apply, val_main_cst_14_apply]
  show Ideal.ofBits .f32 0x00000000#32 + _ = _
  rw [Ideal.ofBits_zero_f32, zero_add]
  unfold rowPred
  refine Finset.sum_congr rfl fun k _ => ?_
  have e : idx_main_v48 (ix1 r) k = ix2 r k :=
    funext fun a => Fin.ext (by match a with | ⟨0, _⟩ => rfl | ⟨1, _⟩ => rfl)
  rw [e, val_main_v47_apply, val_main_v39_apply, exp_at, den_at]
  rfl

/-! ## The row -/

/-- The reference's result at row `r`. -/
theorem ref_row (r : Fin 524288) :
    val_main_v49 (F := Ideal) x0 x1 x2 x3 (ix1 r) = refRow (sRow x0 r) (bRow x1 x2 r) (qRow x1 x3 r) := by
  rw [val_main_v49_apply, valid_at, pred_at, val_main_call2_v1_apply, val_main_call2_v0_apply, val_main_cst_15_apply]
  show Scalar.select _ _ (Ideal.ofBits .f32 0x00000000#32) = _
  rw [Ideal.ofBits_zero_f32]
  rfl

end Cert.ReferenceIdeal.RefRow

end
-- ==== Proof.RefArray.lean ====
/-
  The reference program's whole result is `KnnRow.G` of the similarities, of the flags it gathers and of the counts it
  gathers: element `r` is the row function of row `r` (`RefRow.ref_row`).
-/
import proofs.«107667_j60370060313142_2_alg».proof.Proof.RefRow
import proofs.«107667_j60370060313142_2_alg».proof.Proof.ArraySpec

noncomputable section

namespace Cert.ReferenceIdeal.RefArray

open Cert.ReferenceIdeal Cert.ReferenceIdeal.Gen Cert.ReferenceIdeal.ReadP Idealize.ShloMosaic Idealize.ShloMosaic.ValueIdx Cert.KnnRow

theorem ref_array (x0 : (⟨S524288x32, .f32⟩ : BufTy).Contents (Elt Ideal)) (x1 : (⟨S524288x32, .i32⟩ : BufTy).Contents (Elt Ideal))
    (x2 : (⟨S2000000, .i1⟩ : BufTy).Contents (Elt Ideal)) (x3 : (⟨S2000000, .f32⟩ : BufTy).Contents (Elt Ideal)) :
    val_main_v49 (F := Ideal) x0 x1 x2 x3 = G x0 (val_main_v8 (F := Ideal) x1 x2) (val_main_v46 (F := Ideal) x1 x3) := by
  funext i
  obtain ⟨r, rfl⟩ : ∃ r : Fin 524288, i = ix1 r := ⟨i 0, eq_ix1 i⟩
  exact RefRow.ref_row x0 x1 x2 x3 r

end Cert.ReferenceIdeal.RefArray

end
-- ==== Proof.lean ====
/-
  Retrieval by nearest neighbours: for each of 524288 rows, 32 neighbours with a similarity, a flag and a count gathered
  from two tables of 2000000 entries at the row's (wrapped) neighbour indices. A neighbour is kept when its similarity
  exceeds a threshold and is viral when kept and flagged; the row's prediction is the softmax-weighted sum of the viral
  neighbours' counts, and it is replaced by zero unless some neighbour is kept, some is viral, and the viral share of the
  kept ones reaches a ratio.

  The kernel does the two gathers on the host, turns the flags into the floats 0 and 1, and reduces blocks of 8192 rows
  on a grid of 64 points; it counts kept and viral neighbours by adding floats. The reference counts them by adding
  32-bit integers and converts the totals. Over the extended reals both counts are the same natural number (at most 32,
  so no integer wraps), a float flag compared against one half is the flag, and every other operation is the same
  function of the same elements with the same constants: the two results are equal element by element
  (`algebraic`), with no use of the finiteness precondition.

  The modules: `RowSpec` (one row as a pure function, and the law joining the two ways of counting), `ArraySpec`
  (the result array `G`), `RefRow` / `RefArray` (the reference's result is `G`), `KerRow` (what the kernel body stores
  for a row), `Blocks` (the 64 written blocks tile the array, which is `G`). The kernel's frames are the generated ones;
  the reference's frame is its run with the result dropped; the idealisation rewrote nothing, so `preserves` is trivial.
-/
import proofs.«107667_j60370060313142_2_alg».proof.Defs
import proofs.«107667_j60370060313142_2_alg».proof.Proof.Gen.Kernel
import proofs.«107667_j60370060313142_2_alg».proof.Proof.Gen.Kernel.Skeleton
import proofs.«107667_j60370060313142_2_alg».proof.Proof.Gen.Kernel.Launch
import proofs.«107667_j60370060313142_2_alg».proof.Proof.Gen.Kernel.Points
import proofs.«107667_j60370060313142_2_alg».proof.Proof.Gen.Kernel.Frame
import proofs.«107667_j60370060313142_2_alg».proof.Proof.Gen.KernelIdeal
import proofs.«107667_j60370060313142_2_alg».proof.Proof.Gen.KernelIdeal.Skeleton
import proofs.«107667_j60370060313142_2_alg».proof.Proof.Gen.KernelIdeal.Launch
import proofs.«107667_j60370060313142_2_alg».proof.Proof.Gen.KernelIdeal.Points
import proofs.«107667_j60370060313142_2_alg».proof.Proof.Gen.KernelIdeal.Frame
import proofs.«107667_j60370060313142_2_alg».proof.Proof.Gen.ReferenceIdeal
import proofs.«107667_j60370060313142_2_alg».proof.Proof.Gen.Pre_finite_inputs
import proofs.«107667_j60370060313142_2_alg».proof.Proof.Blocks
import proofs.«107667_j60370060313142_2_alg».proof.Proof.RefArray
import Idealize.ShloMosaic.Adequacy
import Idealize.ShloMosaic.Init

noncomputable section

namespace Cert.Proof

open Idealize.ShloMosaic Idealize.SL.Sem Cert.Kernel

/-- The kernel as printed runs and leaves its arguments unchanged. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- The idealisation rewrote no operation. -/
theorem preserves : Cert.preserves_Kernel_KernelIdeal := trivial

/-- Both programs end with the result array at `KnnRow.G` of the similarities, the gathered flags and the gathered
    counts; the two gathers are the same operation applied to arguments that agree. -/
theorem algebraic : Cert.algebraic_KernelIdeal_ReferenceIdeal := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.ReadP.val_main_v49_eq, Cert.ReferenceIdeal.RefArray.ref_array,
    (hagree c).1, (hagree c).2.1, (hagree c).2.2.1, (hagree c).2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
